-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S16384x256 : Shape := ⟨2, ![16384, 256]⟩
abbrev S1280x256 : Shape := ⟨2, ![1280, 256]⟩
abbrev S256 : Shape := ⟨1, ![256]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1280x256 : S_.BroadcastsInDim S1280x256 (![] : Fin 0 → Fin S1280x256.rank)
  reducesTo_S1280x256_S_d0_1 : S1280x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S1280x256 .f32) (main_v50 : FVec F S1280x256 .f32) : IVec S_ 1 :=
  let main_v51 : IVec S1280x256 1 := cmpf .olt main_v49 main_v50
  let main_c_19 : IVec S_ 1 := constantI S_ 1 1#1
  let main_v52 : IVec S_ 1 := (fun x v => Host.reduce IntOp.andi x v reducesTo_S1280x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S1280x256 .f32) (main_arg9 : FVec F S256 .f32) (main_arg10 : FVec F S1280x256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1280x256 .f32 := Host.absf main_arg8
  let main_cst_14 : FVec F S_ .f32 := constant S_ .f32 0x7F800000#32
  let main_v40 : FVec F S1280x256 .f32 := broadcastInDim S1280x256 ![] bcast_S_S1280x256 main_cst_14
  let main_v41 : IVec S1280x256 1 := cmpf .olt main_v39 main_v40
  let main_c_15 : IVec S_ 1 := constantI S_ 1 1#1
  let main_v42 : IVec S_ 1 := (fun x v => Host.reduce IntOp.andi x v reducesTo_S1280x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1280x256 .f32 := Host.absf main_arg10
  let main_cst_18 : FVec F S_ .f32 := constant S_ .f32 0x7F800000#32
  let main_v50 : FVec F S1280x256 .f32 := broadcastInDim S1280x256 ![] bcast_S_S1280x256 main_cst_18
  fn_part3 (F := F) main_arg11 main_v48 main_v49 main_v50

def fn_part1 {F : FTy → Type} [FloatOps F] (main_arg4 : FVec F S1280x256 .f32) (main_arg5 : FVec F S256 .f32) (main_arg6 : FVec F S1280x256 .f32) (main_arg7 : FVec F S256 .f32) (main_arg8 : FVec F S1280x256 .f32) (main_arg9 : FVec F S256 .f32) (main_arg10 : FVec F S1280x256 .f32) (main_arg11 : FVec F S256 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S1280x256 .f32 := Host.absf main_arg4
  let main_cst_6 : FVec F S_ .f32 := constant S_ .f32 0x7F800000#32
  let main_v20 : FVec F S1280x256 .f32 := broadcastInDim S1280x256 ![] bcast_S_S1280x256 main_cst_6
  let main_v21 : IVec S1280x256 1 := cmpf .olt main_v19 main_v20
  let main_c_7 : IVec S_ 1 := constantI S_ 1 1#1
  let main_v22 : IVec S_ 1 := (fun x v => Host.reduce IntOp.andi x v reducesTo_S1280x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1280x256 .f32 := Host.absf main_arg6
  let main_cst_10 : FVec F S_ .f32 := constant S_ .f32 0x7F800000#32
  let main_v30 : FVec F S1280x256 .f32 := broadcastInDim S1280x256 ![] bcast_S_S1280x256 main_cst_10
  let main_v31 : IVec S1280x256 1 := cmpf .olt main_v29 main_v30
  let main_c_11 : IVec S_ 1 := constantI S_ 1 1#1
  let main_v32 : IVec S_ 1 := (fun x v => Host.reduce IntOp.andi x v reducesTo_S1280x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x768 .f32) (main_arg1 : FVec F S16384x256 .f32) (main_arg2 : FVec F S16384x256 .f32) (main_arg3 : FVec F S16384x256 .f32) (main_arg4 : FVec F S1280x256 .f32) (main_arg5 : FVec F S256 .f32) (main_arg6 : FVec F S1280x256 .f32) (main_arg7 : FVec F S256 .f32) (main_arg8 : FVec F S1280x256 .f32) (main_arg9 : FVec F S256 .f32) (main_arg10 : FVec F S1280x256 .f32) (main_arg11 : FVec F S256 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_arg7 main_arg8 main_arg9 main_arg10 main_arg11 main_v13 main_v16
-- ==== Kernel.lean ====
abbrev S16384x768 : Shape := ⟨2, ![16384, 768]⟩
abbrev S16384x256 : Shape := ⟨2, ![16384, 256]⟩
abbrev S1280x256 : Shape := ⟨2, ![1280, 256]⟩
abbrev S256 : Shape := ⟨1, ![256]⟩
abbrev S1280x1024 : Shape := ⟨2, ![1280, 1024]⟩
abbrev S1024 : Shape := ⟨1, ![1024]⟩
abbrev S1x1024 : Shape := ⟨2, ![1, 1024]⟩
abbrev S1024x768 : Shape := ⟨2, ![1024, 768]⟩
abbrev S1024x256 : Shape := ⟨2, ![1024, 256]⟩
abbrev S1024x1280 : Shape := ⟨2, ![1024, 1280]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S1280x256, .f32⟩
  | .hbm, ⟨5, _⟩ => ⟨S256, .f32⟩
  | .hbm, ⟨6, _⟩ => ⟨S1280x256, .f32⟩
  | .hbm, ⟨7, _⟩ => ⟨S256, .f32⟩
  | .hbm, ⟨8, _⟩ => ⟨S1280x256, .f32⟩
  | .hbm, ⟨9, _⟩ => ⟨S256, .f32⟩
  | .hbm, ⟨10, _⟩ => ⟨S1280x256, .f32⟩
  | .hbm, ⟨11, _⟩ => ⟨S256, .f32⟩
  | .hbm, ⟨12, _⟩ => ⟨S1280x1024, .f32⟩
  | .hbm, ⟨13, _⟩ => ⟨S1024, .f32⟩
  | .hbm, ⟨14, _⟩ => ⟨S1x1024, .f32⟩
  | .hbm, ⟨15, _⟩ => ⟨S16384x256, .f32⟩
  | .hbm, ⟨16, _⟩ => ⟨S16384x256, .f32⟩
  | .local _ .vmem, ⟨0, _⟩ => ⟨S1024x768, .f32⟩
  | .local _ .vmem, ⟨1, _⟩ => ⟨S1024x768, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1280x1024, .f32⟩
  | .local _ .vmem, ⟨9, _⟩ => ⟨S1x1024, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1280x256_S1280x256_S1280x256_S1280x256_S1280x1024_d1 : Shape.Concatenates [S1280x256, S1280x256, S1280x256, S1280x256] S1280x1024 1
  concatenates_S256_S256_S256_S256_S1024_d0 : Shape.Concatenates [S256, S256, S256, S256] S1024 0
  shapeCasts_S1024_S1x1024 : S1024.ShapeCasts S1x1024
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  concatenates_S1024x768_S1024x256_S1024x256_S1024x1280_d1 : Shape.Concatenates [S1024x768, S1024x256, S1024x256] S1024x1280 1
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x1280_S1280x1024_S1024x1024_1_0_0_1_n_n_wf : DotDims.WF S1024x1280 S1280x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x1024.size a ≤ S1280x1024.size a
  hwx0_4 : ∀ i : grid0.Coords, EltTy.bits .f32 = 32 ∨ (Rect.block (s := S1280x1024) S1280x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S16384x256.size a
  hwx0_6 : ∀ i : grid0.Coords, EltTy.bits .f32 = 32 ∨ (Rect.block (s := S16384x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .f32 = 32 ∨ (Rect.block (s := S16384x256) S1024x256.size (cc0_transform_7 i) (hinb0_7 i)).WholeWords (EltTy.packing .f32)

variable [Facts₀]

def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1280x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x768 : Shape := ⟨2, ![16384, 768]⟩
abbrev S16384x256 : Shape := ⟨2, ![16384, 256]⟩
abbrev S1280x256 : Shape := ⟨2, ![1280, 256]⟩
abbrev S256 : Shape := ⟨1, ![256]⟩
abbrev S16384x1280 : Shape := ⟨2, ![16384, 1280]⟩
abbrev S1280x1024 : Shape := ⟨2, ![1280, 1024]⟩
abbrev S1024 : Shape := ⟨1, ![1024]⟩
abbrev S16384x1024 : Shape := ⟨2, ![16384, 1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S1280x256, .f32⟩
  | .hbm, ⟨5, _⟩ => ⟨S256, .f32⟩
  | .hbm, ⟨6, _⟩ => ⟨S1280x256, .f32⟩
  | .hbm, ⟨7, _⟩ => ⟨S256, .f32⟩
  | .hbm, ⟨8, _⟩ => ⟨S1280x256, .f32⟩
  | .hbm, ⟨9, _⟩ => ⟨S256, .f32⟩
  | .hbm, ⟨10, _⟩ => ⟨S1280x256, .f32⟩
  | .hbm, ⟨11, _⟩ => ⟨S256, .f32⟩
  | .hbm, ⟨12, _⟩ => ⟨S16384x1280, .f32⟩
  | .hbm, ⟨13, _⟩ => ⟨S1280x1024, .f32⟩
  | .hbm, ⟨14, _⟩ => ⟨S1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S_, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  concatenates_S16384x768_S16384x256_S16384x256_S16384x1280_d1 : Shape.Concatenates [S16384x768, S16384x256, S16384x256] S16384x1280 1
  concatenates_S1280x256_S1280x256_S1280x256_S1280x256_S1280x1024_d1 : Shape.Concatenates [S1280x256, S1280x256, S1280x256, S1280x256] S1280x1024 1
  concatenates_S256_S256_S256_S256_S1024_d0 : Shape.Concatenates [S256, S256, S256, S256] S1024 0
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x1024_S16384x256_0_0 : S16384x1024.Slices ![0, 0] S16384x256
  slices_S16384x1024_S16384x256_0_256 : S16384x1024.Slices ![0, 256] S16384x256
  slices_S16384x1024_S16384x256_0_512 : S16384x1024.Slices ![0, 512] S16384x256
  slices_S16384x1024_S16384x256_0_768 : S16384x1024.Slices ![0, 768] S16384x256
  bcast_S_S16384x256 : S_.BroadcastsInDim S16384x256 (![] : Fin 0 → Fin S16384x256.rank)
  dot_S16384x1280_S1280x1024_S16384x1024_1_0_0_1_n_n_wf : DotDims.WF S16384x1280 S1280x1024 S16384x1024 [1] [0] [0] [1] [] []

variable [Facts₀]

def dot_S16384x1280_S1280x1024_S16384x1024_1_0_0_1_n_n : DotDims S16384x1280 S1280x1024 S16384x1024 where
  lhsContracting := [1]
  rhsContracting := [0]
  lhsNonContracting := [0]
  rhsNonContracting := [1]
  lhsBatch := []
  rhsBatch := []
  wf := dot_S16384x1280_S1280x1024_S16384x1024_1_0_0_1_n_n_wf

class Facts : Prop extends Facts₀ where

variable [Facts]
-- ==== Proof.FrameKernel.lean ====
/-
  The frame of `Kernel`'s @main: three host lines build the joined weight matrix, the joined bias vector and its
  one-row reshape; then one region runs the gate kernel over 16 row blocks of 1024 rows.

  * What the region finds in each buffer is the launch memory after those three host lines (`V`). None of them
    writes an argument array (`V_arg`), so every argument is found as launched.
  * At a grid point the body reads six input blocks (three input slices, the old state, the whole weight matrix,
    the bias row) and overwrites both output blocks whole: with the new hidden state and with the new cell state,
    each a pure function of the six blocks (`hiddenBlock`, `stateBlock`, over the skeleton's payloads). It loads
    the two output buffers before storing, but uses neither value, so the outputs may hold anything beforehand.
  * The proof data says exactly that, the body obligation follows from the body's triple at a symbolic point, and
    the library's frame run gives: every argument array ends as launched (`frame`), and each output array ends as
    the region-entry contents overwritten block by block (`run_main`, read further by the value modules).
-/
import proofs.«159593_j63376537420221_1_alg».proof.Proof.Gen.Kernel.Launch
import proofs.«159593_j63376537420221_1_alg».proof.Proof.Gen.Kernel.Skeleton
import proofs.«159593_j63376537420221_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the three host lines. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the three the host lines write is found as launched. -/
theorem V_arg (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from the point
    before (the block index has then not moved). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1's current staging buffer holds its block at every point, fetched there or kept from the point
    before (the block index has then not moved). -/
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2's current staging buffer holds its block at every point, fetched there or kept from the point
    before (the block index has then not moved). -/
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3's current staging buffer holds its block at every point, fetched there or kept from the point
    before (the block index has then not moved). -/
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4's current staging buffer holds its block at every point, fetched there or kept from the point
    before (the block index has then not moved). -/
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
/-- Input window 5's current staging buffer holds its block at every point, fetched there or kept from the point
    before (the block index has then not moved). -/
theorem before_in5 {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the region-entry contents: the four
    staged argument arrays are inputs, so they end as the region found them; the eight others are staged by no window, so
    they too; and the region found every argument as launched (`V_arg`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_arg m c main_arg0 (by decide) (by decide) (by decide)))),
      ((h c).1 1).trans (((dats 0 c).arrAt_in 1 rfl _).trans ((hA c 1).trans (V_arg m c main_arg1 (by decide) (by decide) (by decide)))),
      ((h c).1 2).trans (((dats 0 c).arrAt_in 2 rfl _).trans ((hA c 2).trans (V_arg m c main_arg2 (by decide) (by decide) (by decide)))),
      ((h c).1 3).trans (((dats 0 c).arrAt_in 3 rfl _).trans ((hA c 3).trans (V_arg m c main_arg3 (by decide) (by decide) (by decide)))),
      ((h c).2 main_arg4 (Pipeline.mem_restRefs_of main_arg4 (by decide) (by decide))).trans (V_arg m c main_arg4 (by decide) (by decide) (by decide)),
      ((h c).2 main_arg5 (Pipeline.mem_restRefs_of main_arg5 (by decide) (by decide))).trans (V_arg m c main_arg5 (by decide) (by decide) (by decide)),
      ((h c).2 main_arg6 (Pipeline.mem_restRefs_of main_arg6 (by decide) (by decide))).trans (V_arg m c main_arg6 (by decide) (by decide) (by decide)),
      ((h c).2 main_arg7 (Pipeline.mem_restRefs_of main_arg7 (by decide) (by decide))).trans (V_arg m c main_arg7 (by decide) (by decide) (by decide)),
      ((h c).2 main_arg8 (Pipeline.mem_restRefs_of main_arg8 (by decide) (by decide))).trans (V_arg m c main_arg8 (by decide) (by decide) (by decide)),
      ((h c).2 main_arg9 (Pipeline.mem_restRefs_of main_arg9 (by decide) (by decide))).trans (V_arg m c main_arg9 (by decide) (by decide) (by decide)),
      ((h c).2 main_arg10 (Pipeline.mem_restRefs_of main_arg10 (by decide) (by decide))).trans (V_arg m c main_arg10 (by decide) (by decide) (by decide)),
      ((h c).2 main_arg11 (Pipeline.mem_restRefs_of main_arg11 (by decide) (by decide))).trans (V_arg m c main_arg11 (by decide) (by decide) (by decide))⟩) h

/-! ## What the body leaves in the two output blocks -/

abbrev rX : Rect S1024x768 := Rect.unit (s := S1024x768) ![0, 0] S1024x768.size inb_S1024x768_S1024x768_0_0
abbrev rH : Rect S1024x256 := Rect.unit (s := S1024x256) ![0, 0] S1024x256.size inb_S1024x256_S1024x256_0_0
abbrev rW : Rect S1280x1024 := Rect.unit (s := S1280x1024) ![0, 0] S1280x1024.size inb_S1280x1024_S1280x1024_0_0
abbrev rB : Rect S1x1024 := Rect.unit (s := S1x1024) ![0, 0] S1x1024.size inb_S1x1024_S1x1024_0_0

/-- The new hidden state's block: the body's one store into output window 6, over the six input blocks. -/
def hiddenBlock (x0 : Vec F S1024x768 .f32) (x1 x2 x3 : Vec F S1024x256 .f32) (x4 : Vec F S1280x1024 .f32)
    (x5 : Vec F S1x1024 .f32) : Vec F S1024x256 .f32 :=
  View.canon [⟨rH, k0_pay3 (View.ld x0 rX) (View.ld x1 rH) (View.ld x2 rH) (View.ld x4 rW) (View.ld x5 rB) (View.ld x3 rH)⟩]

/-- The new cell state's block: the body's one store into output window 7. -/
def stateBlock (x0 : Vec F S1024x768 .f32) (x1 x2 x3 : Vec F S1024x256 .f32) (x4 : Vec F S1280x1024 .f32)
    (x5 : Vec F S1x1024 .f32) : Vec F S1024x256 .f32 :=
  View.canon [⟨rH, k0_pay2 (View.ld x0 rX) (View.ld x1 rH) (View.ld x2 rH) (View.ld x4 rW) (View.ld x5 rB) (View.ld x3 rH)⟩]

/-- One store through the whole-block rectangle covers the block. -/
theorem cover_out (p0 : Vec F S1024x256 .f32) (y : S1024x256.Idx) :
    ∃ pc ∈ ([⟨rH, p0⟩] : List (View.Piece (Elt F) S1024x256 .f32)), y ∈ pc.1.set :=
  View.cover_of_tiled [⟨rH, p0⟩] S1024x256.size (by rfl) y

/-! ## The body's triple -/

set_option maxHeartbeats 4000000 in
/-- The body on whole staging memrefs — the six inputs' at known contents, the two outputs' at anything — runs to the
    end, leaving the inputs as they were and the outputs at `hiddenBlock` and `stateBlock` of the inputs. -/
theorem sound_kernel (c : Dev nD) (E : Set ℕ) (i : grid0.Coords) (arg1 : Memref sig .tc .vmem S1024x768 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1280x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole)
    (x0 : Vec F S1024x768 .f32) (x1 x2 x3 : Vec F S1024x256 .f32) (x4 : Vec F S1280x1024 .f32) (x5 : Vec F S1x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5)
            ∗ owns (c : Thread nD τ) arg8 fullShare (stateBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The proof data -/

/-- On core `c`: the arrays as the region finds them; after the body at point `t` each input's buffer still at its
    block and the two outputs' at `hiddenBlock` and `stateBlock` of the six input blocks at `t`; the invariant is the
    untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => stateBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = hiddenBlock (iblk m c 0 t) (iblk m c 1 t) (iblk m c 2 t) (iblk m c 3 t) (iblk m c 4 t) (iblk m c 5 t) := by dsimp only [dats]
theorem after7 (c : Dev nD) (t : Fin cfg0.N) : (dats m 0 c).after 7 t
    = stateBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation at a symbolic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every window's array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Region

end
-- ==== Proof.FrameKernelIdeal.lean ====
/-
  The frame of `KernelIdeal`'s @main: three host lines build the joined weight matrix, the joined bias vector and its
  one-row reshape; then one region runs the gate kernel over 16 row blocks of 1024 rows.

  * What the region finds in each buffer is the launch memory after those three host lines (`V`). None of them
    writes an argument array (`V_arg`), so every argument is found as launched.
  * At a grid point the body reads six input blocks (three input slices, the old state, the whole weight matrix,
    the bias row) and overwrites both output blocks whole: with the new hidden state and with the new cell state,
    each a pure function of the six blocks (`hiddenBlock`, `stateBlock`, over the skeleton's payloads). It loads
    the two output buffers before storing, but uses neither value, so the outputs may hold anything beforehand.
  * The proof data says exactly that, the body obligation follows from the body's triple at a symbolic point, and
    the library's frame run gives: every argument array ends as launched (`frame`), and each output array ends as
    the region-entry contents overwritten block by block (`run_main`, read further by the value modules).
-/
import proofs.«159593_j63376537420221_1_alg».proof.Proof.Gen.KernelIdeal.Launch
import proofs.«159593_j63376537420221_1_alg».proof.Proof.Gen.KernelIdeal.Skeleton
import proofs.«159593_j63376537420221_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the three host lines. -/
abbrev V (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the three the host lines write is found as launched. -/
theorem V_arg (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from the point
    before (the block index has then not moved). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1's current staging buffer holds its block at every point, fetched there or kept from the point
    before (the block index has then not moved). -/
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2's current staging buffer holds its block at every point, fetched there or kept from the point
    before (the block index has then not moved). -/
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3's current staging buffer holds its block at every point, fetched there or kept from the point
    before (the block index has then not moved). -/
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4's current staging buffer holds its block at every point, fetched there or kept from the point
    before (the block index has then not moved). -/
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
/-- Input window 5's current staging buffer holds its block at every point, fetched there or kept from the point
    before (the block index has then not moved). -/
theorem before_in5 {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the region-entry contents: the four
    staged argument arrays are inputs, so they end as the region found them; the eight others are staged by no window, so
    they too; and the region found every argument as launched (`V_arg`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_arg m c main_arg0 (by decide) (by decide) (by decide)))),
      ((h c).1 1).trans (((dats 0 c).arrAt_in 1 rfl _).trans ((hA c 1).trans (V_arg m c main_arg1 (by decide) (by decide) (by decide)))),
      ((h c).1 2).trans (((dats 0 c).arrAt_in 2 rfl _).trans ((hA c 2).trans (V_arg m c main_arg2 (by decide) (by decide) (by decide)))),
      ((h c).1 3).trans (((dats 0 c).arrAt_in 3 rfl _).trans ((hA c 3).trans (V_arg m c main_arg3 (by decide) (by decide) (by decide)))),
      ((h c).2 main_arg4 (Pipeline.mem_restRefs_of main_arg4 (by decide) (by decide))).trans (V_arg m c main_arg4 (by decide) (by decide) (by decide)),
      ((h c).2 main_arg5 (Pipeline.mem_restRefs_of main_arg5 (by decide) (by decide))).trans (V_arg m c main_arg5 (by decide) (by decide) (by decide)),
      ((h c).2 main_arg6 (Pipeline.mem_restRefs_of main_arg6 (by decide) (by decide))).trans (V_arg m c main_arg6 (by decide) (by decide) (by decide)),
      ((h c).2 main_arg7 (Pipeline.mem_restRefs_of main_arg7 (by decide) (by decide))).trans (V_arg m c main_arg7 (by decide) (by decide) (by decide)),
      ((h c).2 main_arg8 (Pipeline.mem_restRefs_of main_arg8 (by decide) (by decide))).trans (V_arg m c main_arg8 (by decide) (by decide) (by decide)),
      ((h c).2 main_arg9 (Pipeline.mem_restRefs_of main_arg9 (by decide) (by decide))).trans (V_arg m c main_arg9 (by decide) (by decide) (by decide)),
      ((h c).2 main_arg10 (Pipeline.mem_restRefs_of main_arg10 (by decide) (by decide))).trans (V_arg m c main_arg10 (by decide) (by decide) (by decide)),
      ((h c).2 main_arg11 (Pipeline.mem_restRefs_of main_arg11 (by decide) (by decide))).trans (V_arg m c main_arg11 (by decide) (by decide) (by decide))⟩) h

/-! ## What the body leaves in the two output blocks -/

abbrev rX : Rect S1024x768 := Rect.unit (s := S1024x768) ![0, 0] S1024x768.size inb_S1024x768_S1024x768_0_0
abbrev rH : Rect S1024x256 := Rect.unit (s := S1024x256) ![0, 0] S1024x256.size inb_S1024x256_S1024x256_0_0
abbrev rW : Rect S1280x1024 := Rect.unit (s := S1280x1024) ![0, 0] S1280x1024.size inb_S1280x1024_S1280x1024_0_0
abbrev rB : Rect S1x1024 := Rect.unit (s := S1x1024) ![0, 0] S1x1024.size inb_S1x1024_S1x1024_0_0

/-- The new hidden state's block: the body's one store into output window 6, over the six input blocks. -/
def hiddenBlock (x0 : Vec F S1024x768 .f32) (x1 x2 x3 : Vec F S1024x256 .f32) (x4 : Vec F S1280x1024 .f32)
    (x5 : Vec F S1x1024 .f32) : Vec F S1024x256 .f32 :=
  View.canon [⟨rH, k0_pay3 (View.ld x0 rX) (View.ld x1 rH) (View.ld x2 rH) (View.ld x4 rW) (View.ld x5 rB) (View.ld x3 rH)⟩]

/-- The new cell state's block: the body's one store into output window 7. -/
def stateBlock (x0 : Vec F S1024x768 .f32) (x1 x2 x3 : Vec F S1024x256 .f32) (x4 : Vec F S1280x1024 .f32)
    (x5 : Vec F S1x1024 .f32) : Vec F S1024x256 .f32 :=
  View.canon [⟨rH, k0_pay2 (View.ld x0 rX) (View.ld x1 rH) (View.ld x2 rH) (View.ld x4 rW) (View.ld x5 rB) (View.ld x3 rH)⟩]

/-- One store through the whole-block rectangle covers the block. -/
theorem cover_out (p0 : Vec F S1024x256 .f32) (y : S1024x256.Idx) :
    ∃ pc ∈ ([⟨rH, p0⟩] : List (View.Piece (Elt F) S1024x256 .f32)), y ∈ pc.1.set :=
  View.cover_of_tiled [⟨rH, p0⟩] S1024x256.size (by rfl) y

/-! ## The body's triple -/

set_option maxHeartbeats 4000000 in
/-- The body on whole staging memrefs — the six inputs' at known contents, the two outputs' at anything — runs to the
    end, leaving the inputs as they were and the outputs at `hiddenBlock` and `stateBlock` of the inputs. -/
theorem sound_kernel (c : Dev nD) (E : Set ℕ) (i : grid0.Coords) (arg1 : Memref sig .tc .vmem S1024x768 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1280x1024 .f32) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole)
    (x0 : Vec F S1024x768 .f32) (x1 x2 x3 : Vec F S1024x256 .f32) (x4 : Vec F S1280x1024 .f32) (x5 : Vec F S1x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5)
            ∗ owns (c : Thread nD τ) arg8 fullShare (stateBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  iexists _; isplitr
  swap; · iexact H7
  ipureintro
  exact View.read_writes_eq_canon _ _ _ (cover_out _)

/-! ## The proof data -/

/-- On core `c`: the arrays as the region finds them; after the body at point `t` each input's buffer still at its
    block and the two outputs' at `hiddenBlock` and `stateBlock` of the six input blocks at `t`; the invariant is the
    untouched rest; nothing is owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBlock (iblk m c 0 t) (iblk m c 1 t) (iblk m c 2 t) (iblk m c 3 t) (iblk m c 4 t) (iblk m c 5 t)
    | ⟨7, _⟩ => stateBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = hiddenBlock (iblk m c 0 t) (iblk m c 1 t) (iblk m c 2 t) (iblk m c 3 t) (iblk m c 4 t) (iblk m c 5 t) := by dsimp only [dats]
theorem after7 (c : Dev nD) (t : Fin cfg0.N) : (dats m 0 c).after 7 t
    = stateBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation at a symbolic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what is
    owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every window's array at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves its twelve argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Region

end
-- ==== Proof.LstmSpec.lean ====
/-
  The mathematics of one LSTM step, over the extended reals, as ONE function of whole arrays.

  `S` is the joined input [16384, 1280] (the input, the previous-time and the previous-layer states side by side),
  `W` the joined weight matrix [1280, 1024] (input, forget, output and candidate gates side by side), `b` the joined
  bias [1024], `old` the old cell state [16384, 256].

    gate r j      = (Σ_k S[r,k] · W[k,j]) + b[j]                     the pre-activation of gate column j in row r
    newState r c  = σ(gate r (256+c)) · old[r,c] + σ(gate r c) · tanh(gate r (768+c))
    newHidden r c = σ(gate r (512+c)) · tanh(newState r c)

  with σ x = 1 / (1 + e^(−x)), extended to ±∞ by its limits. Nothing here needs finiteness: both programs compute these
  very expressions, sum for sum and factor for factor; only the arrangement of the data differs.
-/
import Idealize.ShloMosaic.PureOps.Ideal
import Idealize.ShloMosaic.Lib.ValueIdx

noncomputable section

namespace Cert.Lstm

open Idealize.ShloMosaic Idealize.ShloMosaic.ValueIdx

/-- Gate column `off + c` of the 1024 joined gate columns (`off` = 0, 256, 512, 768 for the input, forget, output and
    candidate gates). -/
def gcol (off : Nat) (hoff : off + 256 ≤ 1024) (c : Fin 256) : Fin 1024 := ⟨off + c.val, by omega⟩

/-- The pre-activation of gate column `j` in row `r`: row `r` of the joined input against column `j` of the joined
    weights, plus the bias. -/
def gate (S : (⟨2, ![16384, 1280]⟩ : Shape).Idx → EReal) (W : (⟨2, ![1280, 1024]⟩ : Shape).Idx → EReal)
    (b : (⟨1, ![1024]⟩ : Shape).Idx → EReal) (r : Fin 16384) (j : Fin 1024) : EReal :=
  (∑ k : Fin 1280, S (ix2 r k) * W (ix2 k j)) + b (ix1 j)

/-- The new cell state at row `r`, column `c`. -/
def newState (S : (⟨2, ![16384, 1280]⟩ : Shape).Idx → EReal) (W : (⟨2, ![1280, 1024]⟩ : Shape).Idx → EReal)
    (b : (⟨1, ![1024]⟩ : Shape).Idx → EReal) (old : (⟨2, ![16384, 256]⟩ : Shape).Idx → EReal)
    (r : Fin 16384) (c : Fin 256) : EReal :=
  Ideal.logistic (gate S W b r (gcol 256 (by decide) c)) * old (ix2 r c)
    + Ideal.logistic (gate S W b r (gcol 0 (by decide) c)) * Ideal.tanh (gate S W b r (gcol 768 (by decide) c))

/-- The new hidden state at row `r`, column `c`. -/
def newHidden (S : (⟨2, ![16384, 1280]⟩ : Shape).Idx → EReal) (W : (⟨2, ![1280, 1024]⟩ : Shape).Idx → EReal)
    (b : (⟨1, ![1024]⟩ : Shape).Idx → EReal) (old : (⟨2, ![16384, 256]⟩ : Shape).Idx → EReal)
    (r : Fin 16384) (c : Fin 256) : EReal :=
  Ideal.logistic (gate S W b r (gcol 512 (by decide) c)) * Ideal.tanh (newState S W b old r c)

/-- The two result arrays. -/
def stateArr (S : (⟨2, ![16384, 1280]⟩ : Shape).Idx → EReal) (W : (⟨2, ![1280, 1024]⟩ : Shape).Idx → EReal)
    (b : (⟨1, ![1024]⟩ : Shape).Idx → EReal) (old : (⟨2, ![16384, 256]⟩ : Shape).Idx → EReal) :
    (⟨2, ![16384, 256]⟩ : Shape).Idx → EReal := fun i => newState S W b old (i 0) (i 1)
def hiddenArr (S : (⟨2, ![16384, 1280]⟩ : Shape).Idx → EReal) (W : (⟨2, ![1280, 1024]⟩ : Shape).Idx → EReal)
    (b : (⟨1, ![1024]⟩ : Shape).Idx → EReal) (old : (⟨2, ![16384, 256]⟩ : Shape).Idx → EReal) :
    (⟨2, ![16384, 256]⟩ : Shape).Idx → EReal := fun i => newHidden S W b old (i 0) (i 1)

/-! ## The joined arrays -/

/-- The three inputs side by side along the columns: [16384, 768 + 256 + 256]. -/
def joinIn (A0 : (⟨2, ![16384, 768]⟩ : Shape).Idx → EReal) (A1 A2 : (⟨2, ![16384, 256]⟩ : Shape).Idx → EReal) :
    (⟨2, ![16384, 1280]⟩ : Shape).Idx → EReal :=
  concatenate ⟨2, ![16384, 1280]⟩ 1 [⟨⟨2, ![16384, 768]⟩, A0⟩, ⟨⟨2, ![16384, 256]⟩, A1⟩, ⟨⟨2, ![16384, 256]⟩, A2⟩]
    (show Shape.Concatenates [⟨2, ![16384, 768]⟩, ⟨2, ![16384, 256]⟩, ⟨2, ![16384, 256]⟩] ⟨2, ![16384, 1280]⟩ 1 by decide)

/-- The four gate weight matrices side by side along the columns: [1280, 4 · 256]. -/
def joinW (W0 W1 W2 W3 : (⟨2, ![1280, 256]⟩ : Shape).Idx → EReal) : (⟨2, ![1280, 1024]⟩ : Shape).Idx → EReal :=
  concatenate ⟨2, ![1280, 1024]⟩ 1 [⟨⟨2, ![1280, 256]⟩, W0⟩, ⟨⟨2, ![1280, 256]⟩, W1⟩, ⟨⟨2, ![1280, 256]⟩, W2⟩, ⟨⟨2, ![1280, 256]⟩, W3⟩]
    (show Shape.Concatenates [⟨2, ![1280, 256]⟩, ⟨2, ![1280, 256]⟩, ⟨2, ![1280, 256]⟩, ⟨2, ![1280, 256]⟩] ⟨2, ![1280, 1024]⟩ 1 by decide)

/-- The four gate biases end to end: [4 · 256]. -/
def joinB (c0 c1 c2 c3 : (⟨1, ![256]⟩ : Shape).Idx → EReal) : (⟨1, ![1024]⟩ : Shape).Idx → EReal :=
  concatenate ⟨1, ![1024]⟩ 0 [⟨⟨1, ![256]⟩, c0⟩, ⟨⟨1, ![256]⟩, c1⟩, ⟨⟨1, ![256]⟩, c2⟩, ⟨⟨1, ![256]⟩, c3⟩]
    (show Shape.Concatenates [⟨1, ![256]⟩, ⟨1, ![256]⟩, ⟨1, ![256]⟩, ⟨1, ![256]⟩] ⟨1, ![1024]⟩ 0 by decide)

/-- The float pattern of 1.0 is the real number one. -/
theorem one_f32 : Ideal.ofBits .f32 0x3F800000#32 = 1 := by
  simp [Ideal.ofBits, Ideal.ieee, -EReal.coe_mul]; norm_num

/-- The quotient `1 / (1 + e^(−x))` written with the float literal 1.0 is the logistic function. -/
theorem logistic_expanded (x : EReal) :
    Ideal.div (Ideal.ofBits .f32 0x3F800000#32) (Ideal.ofBits .f32 0x3F800000#32 + Ideal.exp (-x)) = Ideal.logistic x := by
  rw [one_f32]; rfl

end Cert.Lstm

end
-- ==== Proof.KernelBlock.lean ====
/-
  The kernel body's arithmetic, read at an index of a row block.

  Over ANY six input blocks — three input slices `b0 b1 b2`, the old state `b3`, the weight block `w`, the bias row
  `bb` — the body's three named values are, at row `y` of the block:

    gate pre-activation at column j :  Σ_k [b0 | b1 | b2][y,k] · w[k,j]  +  bb[0,j]
    new state at column c           :  σ(pre (256+c)) · b3[y,c] + σ(pre c) · tanh(pre (768+c))
    new hidden at column c          :  σ(pre (512+c)) · tanh(new state c)

  The narrowing to bf16 is the identity on extended reals, the matrix product into a zero accumulator is the plain sum
  over the one contracted axis, the bias row is broadcast over the rows, and the four gates are column slices.
-/
import proofs.«159593_j63376537420221_1_alg».proof.Proof.Gen.KernelIdeal.Skeleton
import proofs.«159593_j63376537420221_1_alg».proof.Proof.LstmSpec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Lstm

variable (b0 : Vec Ideal S1024x768 .f32) (b1 b2 b3 : Vec Ideal S1024x256 .f32) (w : Vec Ideal S1280x1024 .f32)
  (bb : Vec Ideal S1x1024 .f32)

/-- The three input blocks side by side, as the body joins them. -/
def joined : FVec Ideal S1024x1280 .bf16 :=
  concatenate S1024x1280 1 [⟨S1024x768, truncf .bf16 b0 bitsLt_bf16_f32⟩, ⟨S1024x256, truncf .bf16 b1 bitsLt_bf16_f32⟩,
    ⟨S1024x256, truncf .bf16 b2 bitsLt_bf16_f32⟩] concatenates_S1024x768_S1024x256_S1024x256_S1024x1280_d1

/-! ## The product's operand indices -/

theorem lhs_row (i : S1024x1024.Idx) (q : dot_S1024x1280_S1280x1024_S1024x1024_1_0_0_1_n_n.contr.Idx) : (dot_S1024x1280_S1280x1024_S1024x1024_1_0_0_1_n_n.lhsIdx i q 0).val = (i 0).val := by
  unfold DotDims.lhsIdx
  rw [dif_neg (show ¬(0 : Fin S1024x1280.rank) ∈ dot_S1024x1280_S1280x1024_S1024x1024_1_0_0_1_n_n.lhsBatch by decide),
    dif_pos (show (0 : Fin S1024x1280.rank) ∈ dot_S1024x1280_S1280x1024_S1024x1024_1_0_0_1_n_n.lhsNonContracting by decide)]
  rfl
theorem lhs_col (i : S1024x1024.Idx) (q : dot_S1024x1280_S1280x1024_S1024x1024_1_0_0_1_n_n.contr.Idx) : (dot_S1024x1280_S1280x1024_S1024x1024_1_0_0_1_n_n.lhsIdx i q 1).val = (q ⟨0, by decide⟩).val :=
  dot_S1024x1280_S1280x1024_S1024x1024_1_0_0_1_n_n.lhsIdx_val_of_single rfl i q
theorem rhs_row (i : S1024x1024.Idx) (q : dot_S1024x1280_S1280x1024_S1024x1024_1_0_0_1_n_n.contr.Idx) : (dot_S1024x1280_S1280x1024_S1024x1024_1_0_0_1_n_n.rhsIdx i q 0).val = (q ⟨0, by decide⟩).val :=
  dot_S1024x1280_S1280x1024_S1024x1024_1_0_0_1_n_n.rhsIdx_val_of_single rfl i q
theorem rhs_col (i : S1024x1024.Idx) (q : dot_S1024x1280_S1280x1024_S1024x1024_1_0_0_1_n_n.contr.Idx) : (dot_S1024x1280_S1280x1024_S1024x1024_1_0_0_1_n_n.rhsIdx i q 1).val = (i 1).val := by
  unfold DotDims.rhsIdx
  rw [dif_neg (show ¬(1 : Fin S1280x1024.rank) ∈ dot_S1024x1280_S1280x1024_S1024x1024_1_0_0_1_n_n.rhsBatch by decide),
    dif_pos (show (1 : Fin S1280x1024.rank) ∈ dot_S1024x1280_S1280x1024_S1024x1024_1_0_0_1_n_n.rhsNonContracting by decide)]
  rfl

/-! ## The three named values at an index -/

/-- The gate pre-activation at row `y`, gate column `j` of the block. -/
theorem pre_at (y : Fin 1024) (j : Fin 1024) :
    k0_pay1 (F := Ideal) b0 b1 b2 w bb (ix2 y j)
      = (∑ k : Fin 1280, joined b0 b1 b2 (ix2 y k) * w (ix2 k j)) + bb (ix2 (0 : Fin 1) j) := by
  unfold k0_pay1
  rw [ValueIdx.addf_apply, shapeCast_self, shapeCast_self]
  refine congrArg₂ (· + ·) ?_ ?_
  · refine (Ideal.matmul_constant_zero_apply dot_S1024x1280_S1280x1024_S1024x1024_1_0_0_1_n_n none _ _ (ix2 y j)).trans ?_
    rw [← Equiv.sum_comp (ValueIdx.contrEquiv1 dot_S1024x1280_S1280x1024_S1024x1024_1_0_0_1_n_n 1280 rfl rfl).symm]
    refine Finset.sum_congr rfl fun k _ => ?_
    have hk := ValueIdx.contrEquiv1_symm_val dot_S1024x1280_S1280x1024_S1024x1024_1_0_0_1_n_n 1280 rfl rfl k
    have el : dot_S1024x1280_S1280x1024_S1024x1024_1_0_0_1_n_n.lhsIdx (ix2 y j) ((ValueIdx.contrEquiv1 dot_S1024x1280_S1280x1024_S1024x1024_1_0_0_1_n_n 1280 rfl rfl).symm k) = ix2 y k :=
      funext fun a => Fin.ext (by
        match a with
        | ⟨0, _⟩ => exact lhs_row _ _
        | ⟨1, _⟩ => exact (lhs_col _ _).trans hk)
    have er : dot_S1024x1280_S1280x1024_S1024x1024_1_0_0_1_n_n.rhsIdx (ix2 y j) ((ValueIdx.contrEquiv1 dot_S1024x1280_S1280x1024_S1024x1024_1_0_0_1_n_n 1280 rfl rfl).symm k) = ix2 k j :=
      funext fun a => Fin.ext (by
        match a with
        | ⟨0, _⟩ => exact (rhs_row _ _).trans hk
        | ⟨1, _⟩ => exact rhs_col _ _)
    rw [el, er]
    rfl
  · exact broadcastTo_apply bb broadcasts_S1x1024_S1024x1024 (ix2 y j) (ix2 (0 : Fin 1) j) (fun a => match a with
      | ⟨0, _⟩ => by show 0 = if (1 : Nat) = 1 then 0 else _; rw [if_pos rfl]
      | ⟨1, _⟩ => by show j.val = if (1024 : Nat) = 1 then 0 else j.val; rw [if_neg (by decide)])

/-- A gate's column slice of the pre-activations, at (y, c), is the pre-activation at column `off + c`. -/
theorem slice_at (P : FVec Ideal S1024x1024 .f32) (off : Nat) (hoff : off + 256 ≤ 1024)
    (h : S1024x1024.Slices ![0, off] S1024x256) (y : Fin 1024) (c : Fin 256) :
    extractStridedSlice S1024x256 ![0, off] P h (ix2 y c) = P (ix2 y (gcol off hoff c)) :=
  extractStridedSlice_apply ![0, off] P h (ix2 y c) (ix2 y (gcol off hoff c)) (fun a => match a with
    | ⟨0, _⟩ => by show y.val = 0 + y.val; omega
    | ⟨1, _⟩ => by show off + c.val = off + c.val; rfl)

/-- The new cell state at (y, c) of the block. -/
theorem state_at (y : Fin 1024) (c : Fin 256) :
    k0_pay2 (F := Ideal) b0 b1 b2 w bb b3 (ix2 y c)
      = Ideal.logistic (k0_pay1 (F := Ideal) b0 b1 b2 w bb (ix2 y (gcol 256 (by decide) c))) * b3 (ix2 y c)
        + Ideal.logistic (k0_pay1 (F := Ideal) b0 b1 b2 w bb (ix2 y (gcol 0 (by decide) c)))
          * Ideal.tanh (k0_pay1 (F := Ideal) b0 b1 b2 w bb (ix2 y (gcol 768 (by decide) c))) := by
  unfold k0_pay2
  generalize k0_pay1 (F := Ideal) b0 b1 b2 w bb = P
  show Ideal.logistic (extractStridedSlice S1024x256 ![0, 256] P slices_S1024x1024_o0_256_S1024x256 (ix2 y c)) * b3 (ix2 y c)
      + Ideal.logistic (extractStridedSlice S1024x256 ![0, 0] P slices_S1024x1024_o0_0_S1024x256 (ix2 y c))
        * Ideal.tanh (extractStridedSlice S1024x256 ![0, 768] P slices_S1024x1024_o0_768_S1024x256 (ix2 y c)) = _
  rw [slice_at P 256 (by decide), slice_at P 0 (by decide), slice_at P 768 (by decide)]

/-- The new hidden state at (y, c) of the block. -/
theorem hidden_at (y : Fin 1024) (c : Fin 256) :
    k0_pay3 (F := Ideal) b0 b1 b2 w bb b3 (ix2 y c)
      = Ideal.logistic (k0_pay1 (F := Ideal) b0 b1 b2 w bb (ix2 y (gcol 512 (by decide) c)))
        * Ideal.tanh (k0_pay2 (F := Ideal) b0 b1 b2 w bb b3 (ix2 y c)) := by
  unfold k0_pay3
  generalize k0_pay1 (F := Ideal) b0 b1 b2 w bb = P
  generalize k0_pay2 (F := Ideal) b0 b1 b2 w bb b3 = Q
  show Ideal.logistic (extractStridedSlice S1024x256 ![0, 512] P slices_S1024x1024_o0_512_S1024x256 (ix2 y c)) * Ideal.tanh (Q (ix2 y c)) = _
  rw [slice_at P 512 (by decide)]

/-! ## From a row block to the whole arrays -/

/-- Row `y` of the three joined blocks is row `r` of the three joined arrays, when each block's row `y` is its
    array's row `r`: on either side the joined column `k` falls in the first piece (k < 768), the second
    (768 ≤ k < 1024) or the third, at the same column of that piece. -/
theorem joined_row (A0 : (⟨2, ![16384, 768]⟩ : Shape).Idx → EReal) (A1 A2 : (⟨2, ![16384, 256]⟩ : Shape).Idx → EReal)
    (y : Fin 1024) (r : Fin 16384)
    (h0 : ∀ k : Fin 768, b0 (ix2 y k) = A0 (ix2 r k)) (h1 : ∀ k : Fin 256, b1 (ix2 y k) = A1 (ix2 r k))
    (h2 : ∀ k : Fin 256, b2 (ix2 y k) = A2 (ix2 r k)) (k : Fin 1280) :
    joined b0 b1 b2 (ix2 y k) = joinIn A0 A1 A2 (ix2 r k) := by
  unfold joined joinIn
  by_cases hk0 : k.val < 768
  · rw [concatenate_apply_piece (1 : Fin 2) _ _ (ix2 y k) 0 (by show (0 : Nat) < 3; decide) S1024x768 _ rfl rfl 0 rfl (ix2 y ⟨k.val, hk0⟩)
        (fun b hb => by match b with | ⟨0, _⟩ => rfl | ⟨1, _⟩ => exact absurd rfl hb) (by show 0 + k.val = k.val; omega),
      concatenate_apply_piece (1 : Fin 2) _ _ (ix2 r k) 0 (by show (0 : Nat) < 3; decide) ⟨2, ![16384, 768]⟩ A0 rfl rfl 0 rfl (ix2 r ⟨k.val, hk0⟩)
        (fun b hb => by match b with | ⟨0, _⟩ => rfl | ⟨1, _⟩ => exact absurd rfl hb) (by show 0 + k.val = k.val; omega)]
    exact h0 ⟨k.val, hk0⟩
  · by_cases hk1 : k.val < 1024
    · have hk' : k.val - 768 < 256 := by omega
      rw [concatenate_apply_piece (1 : Fin 2) _ _ (ix2 y k) 1 (by show (1 : Nat) < 3; decide) S1024x256 _ rfl rfl 768 rfl (ix2 y ⟨k.val - 768, hk'⟩)
          (fun b hb => by match b with | ⟨0, _⟩ => rfl | ⟨1, _⟩ => exact absurd rfl hb) (by show 768 + (k.val - 768) = k.val; omega),
        concatenate_apply_piece (1 : Fin 2) _ _ (ix2 r k) 1 (by show (1 : Nat) < 3; decide) ⟨2, ![16384, 256]⟩ A1 rfl rfl 768 rfl (ix2 r ⟨k.val - 768, hk'⟩)
          (fun b hb => by match b with | ⟨0, _⟩ => rfl | ⟨1, _⟩ => exact absurd rfl hb) (by show 768 + (k.val - 768) = k.val; omega)]
      exact h1 ⟨k.val - 768, hk'⟩
    · have hk' : k.val - 1024 < 256 := by have := k.isLt; omega
      rw [concatenate_apply_piece (1 : Fin 2) _ _ (ix2 y k) 2 (by show (2 : Nat) < 3; decide) S1024x256 _ rfl rfl 1024 rfl (ix2 y ⟨k.val - 1024, hk'⟩)
          (fun b hb => by match b with | ⟨0, _⟩ => rfl | ⟨1, _⟩ => exact absurd rfl hb) (by show 1024 + (k.val - 1024) = k.val; omega),
        concatenate_apply_piece (1 : Fin 2) _ _ (ix2 r k) 2 (by show (2 : Nat) < 3; decide) ⟨2, ![16384, 256]⟩ A2 rfl rfl 1024 rfl (ix2 r ⟨k.val - 1024, hk'⟩)
          (fun b hb => by match b with | ⟨0, _⟩ => rfl | ⟨1, _⟩ => exact absurd rfl hb) (by show 1024 + (k.val - 1024) = k.val; omega)]
      exact h2 ⟨k.val - 1024, hk'⟩

/-- The block's gate pre-activation is the specification's, when row `y` of the joined blocks is row `r` of `S`, the
    weight block is `W` and the bias row is `b`. -/
theorem pre_is_gate (S : (⟨2, ![16384, 1280]⟩ : Shape).Idx → EReal) (W : (⟨2, ![1280, 1024]⟩ : Shape).Idx → EReal)
    (b : (⟨1, ![1024]⟩ : Shape).Idx → EReal) (y : Fin 1024) (r : Fin 16384)
    (hS : ∀ k : Fin 1280, joined b0 b1 b2 (ix2 y k) = S (ix2 r k)) (hW : ∀ (k : Fin 1280) (j : Fin 1024), w (ix2 k j) = W (ix2 k j))
    (hb : ∀ j : Fin 1024, bb (ix2 (0 : Fin 1) j) = b (ix1 j)) (j : Fin 1024) :
    k0_pay1 (F := Ideal) b0 b1 b2 w bb (ix2 y j) = gate S W b r j := by
  rw [pre_at, hb]
  unfold gate
  exact congrArg (· + b (ix1 j)) (Finset.sum_congr rfl fun k _ => by rw [hS, hW])

/-- So the block's new cell state and new hidden state at (y, c) are the specification's at (r, c). -/
theorem state_is_spec (S : (⟨2, ![16384, 1280]⟩ : Shape).Idx → EReal) (W : (⟨2, ![1280, 1024]⟩ : Shape).Idx → EReal)
    (b : (⟨1, ![1024]⟩ : Shape).Idx → EReal) (old : (⟨2, ![16384, 256]⟩ : Shape).Idx → EReal) (y : Fin 1024) (r : Fin 16384)
    (hS : ∀ k : Fin 1280, joined b0 b1 b2 (ix2 y k) = S (ix2 r k)) (hW : ∀ (k : Fin 1280) (j : Fin 1024), w (ix2 k j) = W (ix2 k j))
    (hb : ∀ j : Fin 1024, bb (ix2 (0 : Fin 1) j) = b (ix1 j)) (c : Fin 256) (hold : b3 (ix2 y c) = old (ix2 r c)) :
    k0_pay2 (F := Ideal) b0 b1 b2 w bb b3 (ix2 y c) = newState S W b old r c := by
  rw [state_at, pre_is_gate b0 b1 b2 w bb S W b y r hS hW hb, pre_is_gate b0 b1 b2 w bb S W b y r hS hW hb,
    pre_is_gate b0 b1 b2 w bb S W b y r hS hW hb, hold]
  rfl
theorem hidden_is_spec (S : (⟨2, ![16384, 1280]⟩ : Shape).Idx → EReal) (W : (⟨2, ![1280, 1024]⟩ : Shape).Idx → EReal)
    (b : (⟨1, ![1024]⟩ : Shape).Idx → EReal) (old : (⟨2, ![16384, 256]⟩ : Shape).Idx → EReal) (y : Fin 1024) (r : Fin 16384)
    (hS : ∀ k : Fin 1280, joined b0 b1 b2 (ix2 y k) = S (ix2 r k)) (hW : ∀ (k : Fin 1280) (j : Fin 1024), w (ix2 k j) = W (ix2 k j))
    (hb : ∀ j : Fin 1024, bb (ix2 (0 : Fin 1) j) = b (ix1 j)) (c : Fin 256) (hold : b3 (ix2 y c) = old (ix2 r c)) :
    k0_pay3 (F := Ideal) b0 b1 b2 w bb b3 (ix2 y c) = newHidden S W b old r c := by
  rw [hidden_at, pre_is_gate b0 b1 b2 w bb S W b y r hS hW hb,
    state_is_spec b0 b1 b2 b3 w bb S W b old y r hS hW hb c hold]
  rfl

end Cert.KernelIdeal.Block

end
-- ==== Proof.KernelArray.lean ====
/-
  From what each grid point writes back to the two whole result arrays.

  Point `t` of the 16 handles rows 1024·t … 1024·t + 1023: the three input windows, the old-state window and the two
  output windows all sit at row block `t` (column block 0), while the weight and bias windows stay on their one block
  (the index maps, decided over the grid). The weight window's array is the four weight matrices joined by the host
  line before the region, the bias window's the four biases joined and reshaped to one row. So what point `t` writes
  back is rows 1024·t … of `Lstm.hiddenArr` / `Lstm.stateArr` of the joined argument arrays; the 16 blocks tile the
  result arrays; hence after the run the two results ARE those arrays, and the arguments are unchanged.
-/
import proofs.«159593_j63376537420221_1_alg».proof.Proof.FrameKernelIdeal
import proofs.«159593_j63376537420221_1_alg».proof.Proof.KernelBlock
import Idealize.ShloMosaic.Lib.StableHlo.Run

set_option maxRecDepth 16384

noncomputable section

namespace Cert.KernelIdeal.Final

open Cert.KernelIdeal Cert.KernelIdeal.Gen Cert.KernelIdeal.Region Cert.KernelIdeal.Block Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The six windows over 16384-row arrays sit at row block `t`, column block 0; the weight and bias windows stay at
    block (0, 0). Decided over the 16 grid points. -/
theorem moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)
theorem staying : ∀ t : Fin cfg0.N,
    (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Row `y` of point `t`'s block is row `1024·t + y` of the arrays. -/
def row (t : Fin cfg0.N) (y : Fin 1024) : Fin 16384 :=
  ⟨t.val * 1024 + y.val, by have e : cfg0.N = 16 := N_0; have := t.isLt; have := y.isLt; omega⟩

/-! ## The input blocks, read through to the argument arrays -/

/-- Row `y` of input window 0's block at point `t` is row `1024·t + y` of its argument array. -/
theorem in0_at (c : Dev nD) (t : Fin cfg0.N) (y : Fin 1024) (k : Fin 768) :
    iblk m c 0 t (ix2 y k) = m ((c : Thread nD τ).loc main_arg0) (ix2 (row t y) k) := by
  unfold iblk
  show V m c main_arg0 (((cfg0.win 0).blk t).view.emb (ix2 y k)) = _
  rw [V_arg m c main_arg0 (by decide) (by decide) (by decide)]
  refine congrArg (m ((c : Thread nD τ).loc main_arg0)) (funext fun a => Fin.ext ?_)
  obtain ⟨e0, e1⟩ := (moving t).1
  match a with
  | ⟨0, _⟩ => show win0_0.index t (0 : Fin 2) * 1024 + 1 * y.val = t.val * 1024 + y.val; omega
  | ⟨1, _⟩ => show win0_0.index t (1 : Fin 2) * 768 + 1 * k.val = k.val; omega
/-- Row `y` of input window 1's block at point `t` is row `1024·t + y` of its argument array. -/
theorem in1_at (c : Dev nD) (t : Fin cfg0.N) (y : Fin 1024) (k : Fin 256) :
    iblk m c 1 t (ix2 y k) = m ((c : Thread nD τ).loc main_arg1) (ix2 (row t y) k) := by
  unfold iblk
  show V m c main_arg1 (((cfg0.win 1).blk t).view.emb (ix2 y k)) = _
  rw [V_arg m c main_arg1 (by decide) (by decide) (by decide)]
  refine congrArg (m ((c : Thread nD τ).loc main_arg1)) (funext fun a => Fin.ext ?_)
  obtain ⟨e0, e1⟩ := (moving t).2.1
  match a with
  | ⟨0, _⟩ => show win0_1.index t (0 : Fin 2) * 1024 + 1 * y.val = t.val * 1024 + y.val; omega
  | ⟨1, _⟩ => show win0_1.index t (1 : Fin 2) * 256 + 1 * k.val = k.val; omega
/-- Row `y` of input window 2's block at point `t` is row `1024·t + y` of its argument array. -/
theorem in2_at (c : Dev nD) (t : Fin cfg0.N) (y : Fin 1024) (k : Fin 256) :
    iblk m c 2 t (ix2 y k) = m ((c : Thread nD τ).loc main_arg2) (ix2 (row t y) k) := by
  unfold iblk
  show V m c main_arg2 (((cfg0.win 2).blk t).view.emb (ix2 y k)) = _
  rw [V_arg m c main_arg2 (by decide) (by decide) (by decide)]
  refine congrArg (m ((c : Thread nD τ).loc main_arg2)) (funext fun a => Fin.ext ?_)
  obtain ⟨e0, e1⟩ := (moving t).2.2.1
  match a with
  | ⟨0, _⟩ => show win0_2.index t (0 : Fin 2) * 1024 + 1 * y.val = t.val * 1024 + y.val; omega
  | ⟨1, _⟩ => show win0_2.index t (1 : Fin 2) * 256 + 1 * k.val = k.val; omega
/-- Row `y` of input window 3's block at point `t` is row `1024·t + y` of its argument array. -/
theorem in3_at (c : Dev nD) (t : Fin cfg0.N) (y : Fin 1024) (k : Fin 256) :
    iblk m c 3 t (ix2 y k) = m ((c : Thread nD τ).loc main_arg3) (ix2 (row t y) k) := by
  unfold iblk
  show V m c main_arg3 (((cfg0.win 3).blk t).view.emb (ix2 y k)) = _
  rw [V_arg m c main_arg3 (by decide) (by decide) (by decide)]
  refine congrArg (m ((c : Thread nD τ).loc main_arg3)) (funext fun a => Fin.ext ?_)
  obtain ⟨e0, e1⟩ := (moving t).2.2.2.1
  match a with
  | ⟨0, _⟩ => show win0_3.index t (0 : Fin 2) * 1024 + 1 * y.val = t.val * 1024 + y.val; omega
  | ⟨1, _⟩ => show win0_3.index t (1 : Fin 2) * 256 + 1 * k.val = k.val; omega

/-- The region finds the weight window's array holding the four weight matrices joined (the first host line). -/
theorem V_weights (c : Dev nD) : (V m c main_v0 : S1280x1024.Idx → EReal)
    = joinW (m ((c : Thread nD τ).loc main_arg4)) (m ((c : Thread nD τ).loc main_arg6)) (m ((c : Thread nD τ).loc main_arg8)) (m ((c : Thread nD τ).loc main_arg10)) := by
  dsimp only [V, hostOps0]; after_results; rfl

/-- and the bias window's array holding the four biases joined and reshaped to one row (the other two host lines). -/
theorem V_bias (c : Dev nD) : (V m c main_v2 : S1x1024.Idx → EReal)
    = shapeCast S1x1024 (joinB (m ((c : Thread nD τ).loc main_arg5)) (m ((c : Thread nD τ).loc main_arg7)) (m ((c : Thread nD τ).loc main_arg9)) (m ((c : Thread nD τ).loc main_arg11))) shapeCasts_S1024_S1x1024 := by
  dsimp only [V, hostOps0]; after_results; rfl

/-- The weight block at every point is the whole joined weight matrix. -/
theorem weights_at (c : Dev nD) (t : Fin cfg0.N) (k : Fin 1280) (j : Fin 1024) :
    iblk m c 4 t (ix2 k j) = joinW (m ((c : Thread nD τ).loc main_arg4)) (m ((c : Thread nD τ).loc main_arg6)) (m ((c : Thread nD τ).loc main_arg8)) (m ((c : Thread nD τ).loc main_arg10)) (ix2 k j) := by
  unfold iblk
  show V m c main_v0 (((cfg0.win 4).blk t).view.emb (ix2 k j)) = _
  rw [V_weights]
  refine congrArg _ (funext fun a => Fin.ext ?_)
  obtain ⟨e0, e1⟩ := (staying t).1
  match a with
  | ⟨0, _⟩ => show win0_4.index t (0 : Fin 2) * 1280 + 1 * k.val = k.val; omega
  | ⟨1, _⟩ => show win0_4.index t (1 : Fin 2) * 1024 + 1 * j.val = j.val; omega

/-- The bias block at every point is the joined bias as one row. -/
theorem bias_at (c : Dev nD) (t : Fin cfg0.N) (j : Fin 1024) :
    iblk m c 5 t (ix2 (0 : Fin 1) j) = joinB (m ((c : Thread nD τ).loc main_arg5)) (m ((c : Thread nD τ).loc main_arg7)) (m ((c : Thread nD τ).loc main_arg9)) (m ((c : Thread nD τ).loc main_arg11)) (ix1 j) := by
  unfold iblk
  show V m c main_v2 (((cfg0.win 5).blk t).view.emb (ix2 (0 : Fin 1) j)) = _
  rw [V_bias]
  refine shapeCast_apply _ shapeCasts_S1024_S1x1024 _ (ix1 j) ?_
  obtain ⟨e0, e1⟩ := (staying t).2
  rw [Shape.rowMajor_val_one, Shape.rowMajor_val_two]
  show j.val = (win0_5.index t (0 : Fin 2) * 1 + 1 * 0) * 1024 + (win0_5.index t (1 : Fin 2) * 1024 + 1 * j.val)
  omega

/-! ## The two output windows -/

/-- What point `t` writes back to output window 7: block `t` of `stateArr` of the joined argument arrays. -/
theorem stateBlock_eq (c : Dev nD) (t : Fin cfg0.N) (j : S1024x256.Idx) :
    k0_pay2 (F := Ideal) (iblk m c 0 t) (iblk m c 1 t) (iblk m c 2 t) (iblk m c 4 t) (iblk m c 5 t) (iblk m c 3 t) j
      = stateArr (joinIn (m ((c : Thread nD τ).loc main_arg0)) (m ((c : Thread nD τ).loc main_arg1)) (m ((c : Thread nD τ).loc main_arg2))) (joinW (m ((c : Thread nD τ).loc main_arg4)) (m ((c : Thread nD τ).loc main_arg6)) (m ((c : Thread nD τ).loc main_arg8)) (m ((c : Thread nD τ).loc main_arg10))) (joinB (m ((c : Thread nD τ).loc main_arg5)) (m ((c : Thread nD τ).loc main_arg7)) (m ((c : Thread nD τ).loc main_arg9)) (m ((c : Thread nD τ).loc main_arg11))) (m ((c : Thread nD τ).loc main_arg3)) (((cfg0.win 7).blk t).view.emb j) := by
  obtain ⟨y, c', rfl⟩ : ∃ (y : Fin 1024) (c' : Fin 256), j = ix2 y c' := ⟨j 0, j 1, eq_ix2 j⟩
  have hemb : ((cfg0.win 7).blk t).view.emb (ix2 y c') = ix2 (row t y) c' := by
    funext a; apply Fin.ext
    obtain ⟨e0, e1⟩ := (moving t).2.2.2.2.2
    match a with
    | ⟨0, _⟩ => show win0_7.index t (0 : Fin 2) * 1024 + 1 * y.val = t.val * 1024 + y.val; omega
    | ⟨1, _⟩ => show win0_7.index t (1 : Fin 2) * 256 + 1 * c'.val = c'.val; omega
  rw [hemb]
  exact state_is_spec (iblk m c 0 t) (iblk m c 1 t) (iblk m c 2 t) (iblk m c 3 t) (iblk m c 4 t) (iblk m c 5 t) _ _ _ _ y (row t y)
    (fun k => joined_row (iblk m c 0 t) (iblk m c 1 t) (iblk m c 2 t) _ _ _ y (row t y) (in0_at m c t y) (in1_at m c t y) (in2_at m c t y) k)
    (weights_at m c t) (bias_at m c t) c' (in3_at m c t y c')

theorem flushed7 (c : Dev nD) (t : Fin cfg0.N) :
    (dats m 0 c).flushed 7 t = ((cfg0.win 7).blk t).view.read (Elt Ideal) (stateArr (joinIn (m ((c : Thread nD τ).loc main_arg0)) (m ((c : Thread nD τ).loc main_arg1)) (m ((c : Thread nD τ).loc main_arg2))) (joinW (m ((c : Thread nD τ).loc main_arg4)) (m ((c : Thread nD τ).loc main_arg6)) (m ((c : Thread nD τ).loc main_arg8)) (m ((c : Thread nD τ).loc main_arg10))) (joinB (m ((c : Thread nD τ).loc main_arg5)) (m ((c : Thread nD τ).loc main_arg7)) (m ((c : Thread nD τ).loc main_arg9)) (m ((c : Thread nD τ).loc main_arg11))) (m ((c : Thread nD τ).loc main_arg3))) := by
  show (cfg0.win 7).cut (grid0.coords t) ((dats m 0 c).after 7 t) = _
  rw [after7]
  unfold stateBlock
  rw [View.canon_unit_zero hz]
  simp only [View.ld_unit_zero (S := S1024x768) hz, View.ld_unit_zero (S := S1024x256) hz,
    View.ld_unit_zero (S := S1280x1024) hz, View.ld_unit_zero (S := S1x1024) hz]
  funext j
  exact stateBlock_eq m c t j

/-- An index of the result array is in point `t`'s block iff its row is one of the block's 1024 rows. -/
theorem mem_blk7 (t : Fin cfg0.N) (i : S16384x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v3_1).slice (win0_7.rect t)).set ↔ _
  rw [View.set_slice_whole, Rect.mem_set_unit]
  exact Iff.rfl

/-- Every row lies in the block of the point `row / 1024`. -/
theorem cover7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  let t : Fin cfg0.N := ⟨(i 0).val / 1024, by have e : cfg0.N = 16 := N_0; omega⟩
  obtain ⟨e0, e1⟩ := (moving t).2.2.2.2.2
  have ht : t.val = (i 0).val / 1024 := rfl
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- The result array after the run. -/
theorem final7 (c : Dev nD) : (dats m 0 c).arrAt 7 cfg0.N = stateArr (joinIn (m ((c : Thread nD τ).loc main_arg0)) (m ((c : Thread nD τ).loc main_arg1)) (m ((c : Thread nD τ).loc main_arg2))) (joinW (m ((c : Thread nD τ).loc main_arg4)) (m ((c : Thread nD τ).loc main_arg6)) (m ((c : Thread nD τ).loc main_arg8)) (m ((c : Thread nD τ).loc main_arg10))) (joinB (m ((c : Thread nD τ).loc main_arg5)) (m ((c : Thread nD τ).loc main_arg7)) (m ((c : Thread nD τ).loc main_arg9)) (m ((c : Thread nD τ).loc main_arg11))) (m ((c : Thread nD τ).loc main_arg3)) :=
  (dats m 0 c).arrAt_eq_of_cover 7 _ (fun t _ => flushed7 m c t) cover7

/-- What point `t` writes back to output window 6: block `t` of `hiddenArr` of the joined argument arrays. -/
theorem hiddenBlock_eq (c : Dev nD) (t : Fin cfg0.N) (j : S1024x256.Idx) :
    k0_pay3 (F := Ideal) (iblk m c 0 t) (iblk m c 1 t) (iblk m c 2 t) (iblk m c 4 t) (iblk m c 5 t) (iblk m c 3 t) j
      = hiddenArr (joinIn (m ((c : Thread nD τ).loc main_arg0)) (m ((c : Thread nD τ).loc main_arg1)) (m ((c : Thread nD τ).loc main_arg2))) (joinW (m ((c : Thread nD τ).loc main_arg4)) (m ((c : Thread nD τ).loc main_arg6)) (m ((c : Thread nD τ).loc main_arg8)) (m ((c : Thread nD τ).loc main_arg10))) (joinB (m ((c : Thread nD τ).loc main_arg5)) (m ((c : Thread nD τ).loc main_arg7)) (m ((c : Thread nD τ).loc main_arg9)) (m ((c : Thread nD τ).loc main_arg11))) (m ((c : Thread nD τ).loc main_arg3)) (((cfg0.win 6).blk t).view.emb j) := by
  obtain ⟨y, c', rfl⟩ : ∃ (y : Fin 1024) (c' : Fin 256), j = ix2 y c' := ⟨j 0, j 1, eq_ix2 j⟩
  have hemb : ((cfg0.win 6).blk t).view.emb (ix2 y c') = ix2 (row t y) c' := by
    funext a; apply Fin.ext
    obtain ⟨e0, e1⟩ := (moving t).2.2.2.2.1
    match a with
    | ⟨0, _⟩ => show win0_6.index t (0 : Fin 2) * 1024 + 1 * y.val = t.val * 1024 + y.val; omega
    | ⟨1, _⟩ => show win0_6.index t (1 : Fin 2) * 256 + 1 * c'.val = c'.val; omega
  rw [hemb]
  exact hidden_is_spec (iblk m c 0 t) (iblk m c 1 t) (iblk m c 2 t) (iblk m c 3 t) (iblk m c 4 t) (iblk m c 5 t) _ _ _ _ y (row t y)
    (fun k => joined_row (iblk m c 0 t) (iblk m c 1 t) (iblk m c 2 t) _ _ _ y (row t y) (in0_at m c t y) (in1_at m c t y) (in2_at m c t y) k)
    (weights_at m c t) (bias_at m c t) c' (in3_at m c t y c')

theorem flushed6 (c : Dev nD) (t : Fin cfg0.N) :
    (dats m 0 c).flushed 6 t = ((cfg0.win 6).blk t).view.read (Elt Ideal) (hiddenArr (joinIn (m ((c : Thread nD τ).loc main_arg0)) (m ((c : Thread nD τ).loc main_arg1)) (m ((c : Thread nD τ).loc main_arg2))) (joinW (m ((c : Thread nD τ).loc main_arg4)) (m ((c : Thread nD τ).loc main_arg6)) (m ((c : Thread nD τ).loc main_arg8)) (m ((c : Thread nD τ).loc main_arg10))) (joinB (m ((c : Thread nD τ).loc main_arg5)) (m ((c : Thread nD τ).loc main_arg7)) (m ((c : Thread nD τ).loc main_arg9)) (m ((c : Thread nD τ).loc main_arg11))) (m ((c : Thread nD τ).loc main_arg3))) := by
  show (cfg0.win 6).cut (grid0.coords t) ((dats m 0 c).after 6 t) = _
  rw [after6]
  unfold hiddenBlock
  rw [View.canon_unit_zero hz]
  simp only [View.ld_unit_zero (S := S1024x768) hz, View.ld_unit_zero (S := S1024x256) hz,
    View.ld_unit_zero (S := S1280x1024) hz, View.ld_unit_zero (S := S1x1024) hz]
  funext j
  exact hiddenBlock_eq m c t j

/-- An index of the result array is in point `t`'s block iff its row is one of the block's 1024 rows. -/
theorem mem_blk6 (t : Fin cfg0.N) (i : S16384x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v3_0).slice (win0_6.rect t)).set ↔ _
  rw [View.set_slice_whole, Rect.mem_set_unit]
  exact Iff.rfl

/-- Every row lies in the block of the point `row / 1024`. -/
theorem cover6 (i : S16384x256.Idx) :
    ∃ t : Fin cfg0.N, (cfg0.win 6).flush t = true ∧ i ∈ ((cfg0.win 6).blk t).view.set := by
  have hi0 : (i 0).val < 16384 := (i 0).isLt
  have hi1 : (i 1).val < 256 := (i 1).isLt
  let t : Fin cfg0.N := ⟨(i 0).val / 1024, by have e : cfg0.N = 16 := N_0; omega⟩
  obtain ⟨e0, e1⟩ := (moving t).2.2.2.2.1
  have ht : t.val = (i 0).val / 1024 := rfl
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 256 ≤ (i 1).val ∧ (i 1).val < win0_6.index t (1 : Fin 2) * 256 + 256; omega

/-- The result array after the run. -/
theorem final6 (c : Dev nD) : (dats m 0 c).arrAt 6 cfg0.N = hiddenArr (joinIn (m ((c : Thread nD τ).loc main_arg0)) (m ((c : Thread nD τ).loc main_arg1)) (m ((c : Thread nD τ).loc main_arg2))) (joinW (m ((c : Thread nD τ).loc main_arg4)) (m ((c : Thread nD τ).loc main_arg6)) (m ((c : Thread nD τ).loc main_arg8)) (m ((c : Thread nD τ).loc main_arg10))) (joinB (m ((c : Thread nD τ).loc main_arg5)) (m ((c : Thread nD τ).loc main_arg7)) (m ((c : Thread nD τ).loc main_arg9)) (m ((c : Thread nD τ).loc main_arg11))) (m ((c : Thread nD τ).loc main_arg3)) :=
  (dats m 0 c).arrAt_eq_of_cover 6 _ (fun t _ => flushed6 m c t) cover6

/-! ## The run, read -/

/-- Every weakly fair execution of the idealized kernel's @main terminates with the first result at the new hidden
    state and the second at the new cell state of the joined argument arrays, the arguments unchanged. -/
theorem run : θ_run defs (onTc (τ := τ) (main (F := Ideal))) ⟨m, fun _ => 0, ρ⟩ fun r => ∀ c : Dev nD,
      r.2.mem ((c.tc : Thread nD τ).loc main_v3_0) = hiddenArr (joinIn (m ((c.tc : Thread nD τ).loc main_arg0)) (m ((c.tc : Thread nD τ).loc main_arg1)) (m ((c.tc : Thread nD τ).loc main_arg2))) (joinW (m ((c.tc : Thread nD τ).loc main_arg4)) (m ((c.tc : Thread nD τ).loc main_arg6)) (m ((c.tc : Thread nD τ).loc main_arg8)) (m ((c.tc : Thread nD τ).loc main_arg10))) (joinB (m ((c.tc : Thread nD τ).loc main_arg5)) (m ((c.tc : Thread nD τ).loc main_arg7)) (m ((c.tc : Thread nD τ).loc main_arg9)) (m ((c.tc : Thread nD τ).loc main_arg11))) (m ((c.tc : Thread nD τ).loc main_arg3))
      ∧ r.2.mem ((c.tc : Thread nD τ).loc main_v3_1) = stateArr (joinIn (m ((c.tc : Thread nD τ).loc main_arg0)) (m ((c.tc : Thread nD τ).loc main_arg1)) (m ((c.tc : Thread nD τ).loc main_arg2))) (joinW (m ((c.tc : Thread nD τ).loc main_arg4)) (m ((c.tc : Thread nD τ).loc main_arg6)) (m ((c.tc : Thread nD τ).loc main_arg8)) (m ((c.tc : Thread nD τ).loc main_arg10))) (joinB (m ((c.tc : Thread nD τ).loc main_arg5)) (m ((c.tc : Thread nD τ).loc main_arg7)) (m ((c.tc : Thread nD τ).loc main_arg9)) (m ((c.tc : Thread nD τ).loc main_arg11))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 6).trans (final6 m c), ((h c).1 7).trans (final7 m c),
      ((h c).1 0).trans ((((dats m 0 c)).arrAt_in 0 rfl _).trans ((A_eq m c 0).trans (V_arg m c main_arg0 (by decide) (by decide) (by decide)))),
      ((h c).1 1).trans ((((dats m 0 c)).arrAt_in 1 rfl _).trans ((A_eq m c 1).trans (V_arg m c main_arg1 (by decide) (by decide) (by decide)))),
      ((h c).1 2).trans ((((dats m 0 c)).arrAt_in 2 rfl _).trans ((A_eq m c 2).trans (V_arg m c main_arg2 (by decide) (by decide) (by decide)))),
      ((h c).1 3).trans ((((dats m 0 c)).arrAt_in 3 rfl _).trans ((A_eq m c 3).trans (V_arg m c main_arg3 (by decide) (by decide) (by decide)))),
      ((h c).2 main_arg4 (Pipeline.mem_restRefs_of main_arg4 (by decide) (by decide))).trans (V_arg m c main_arg4 (by decide) (by decide) (by decide)),
      ((h c).2 main_arg5 (Pipeline.mem_restRefs_of main_arg5 (by decide) (by decide))).trans (V_arg m c main_arg5 (by decide) (by decide) (by decide)),
      ((h c).2 main_arg6 (Pipeline.mem_restRefs_of main_arg6 (by decide) (by decide))).trans (V_arg m c main_arg6 (by decide) (by decide) (by decide)),
      ((h c).2 main_arg7 (Pipeline.mem_restRefs_of main_arg7 (by decide) (by decide))).trans (V_arg m c main_arg7 (by decide) (by decide) (by decide)),
      ((h c).2 main_arg8 (Pipeline.mem_restRefs_of main_arg8 (by decide) (by decide))).trans (V_arg m c main_arg8 (by decide) (by decide) (by decide)),
      ((h c).2 main_arg9 (Pipeline.mem_restRefs_of main_arg9 (by decide) (by decide))).trans (V_arg m c main_arg9 (by decide) (by decide) (by decide)),
      ((h c).2 main_arg10 (Pipeline.mem_restRefs_of main_arg10 (by decide) (by decide))).trans (V_arg m c main_arg10 (by decide) (by decide) (by decide)),
      ((h c).2 main_arg11 (Pipeline.mem_restRefs_of main_arg11 (by decide) (by decide))).trans (V_arg m c main_arg11 (by decide) (by decide) (by decide))⟩)
    (run_main m ρ)

end Cert.KernelIdeal.Final

end
-- ==== Proof.RefSide.lean ====
/-
  The reference's two results are the specification's arrays.

  The reference joins the three inputs, the four weight matrices and the four biases once, multiplies, adds the bias
  (broadcast over the rows), cuts the 1024 gate columns into four groups of 256, and applies the gate arithmetic,
  spelling the logistic function as 1 / (1 + e^(−x)). Read at an index (r, c), operation by operation (the generated
  read-at-an-index lemmas), that is `Lstm.newState` / `Lstm.newHidden` of the three joined arrays — kept whole here,
  never opened — and the old state.
-/
import proofs.«159593_j63376537420221_1_alg».proof.Proof.Gen.ReferenceIdeal.Read
import proofs.«159593_j63376537420221_1_alg».proof.Proof.LstmSpec

noncomputable section

namespace Cert.ReferenceIdeal.RefValue

open Cert.ReferenceIdeal Cert.ReferenceIdeal.Read Idealize.ShloMosaic Idealize.ShloMosaic.ValueIdx Cert.Lstm

variable (x0 : (⟨S16384x768, .f32⟩ : BufTy).Contents (Elt Ideal)) (x1 x2 x3 : (⟨S16384x256, .f32⟩ : BufTy).Contents (Elt Ideal))
  (x4 x6 x8 x10 : (⟨S1280x256, .f32⟩ : BufTy).Contents (Elt Ideal)) (x5 x7 x9 x11 : (⟨S256, .f32⟩ : BufTy).Contents (Elt Ideal))

/-- The bias-added product at (r, j) is the gate pre-activation: the product's element is the sum over the joined
    axis, and the twice-broadcast bias is read at column j. -/
theorem ref_gate (r : Fin 16384) (j : Fin 1024) :
    val_main_v6 (F := Ideal) x0 x1 x2 x4 x5 x6 x7 x8 x9 x10 x11 (ix2 r j)
      = gate (val_main_v0 (F := Ideal) x0 x1 x2) (val_main_v1 (F := Ideal) x4 x6 x8 x10) (val_main_v2 (F := Ideal) x5 x7 x9 x11) r j := by
  have hl : ∀ k : Fin 1280, lidx_main_v3 (ix2 r j) k = ix2 r k := fun k =>
    funext fun a => by match a with | ⟨0, _⟩ => rfl | ⟨1, _⟩ => rfl
  have hr : ∀ k : Fin 1280, ridx_main_v3 (ix2 r j) k = ix2 k j := fun k =>
    funext fun a => by match a with | ⟨0, _⟩ => rfl | ⟨1, _⟩ => rfl
  have hb : idx_main_v4 (idx_main_v5 (ix2 r j)) = ix1 j :=
    funext fun a => by match a with | ⟨0, _⟩ => rfl
  rw [val_main_v6_apply, val_main_v3_apply, val_main_v5_apply, val_main_v4_apply, hb]
  simp only [hl, hr]
  rfl

/-- The slices' column offsets. -/
theorem col0 (r : Fin 16384) (c : Fin 256) : idx_main_v7 (ix2 r c) = ix2 r (gcol 0 (by decide) c) :=
  funext fun a => by match a with | ⟨0, _⟩ => rfl | ⟨1, _⟩ => exact Fin.ext (Nat.zero_add _).symm
theorem col256 (r : Fin 16384) (c : Fin 256) : idx_main_v8 (ix2 r c) = ix2 r (gcol 256 (by decide) c) :=
  funext fun a => by match a with | ⟨0, _⟩ => rfl | ⟨1, _⟩ => rfl
theorem col512 (r : Fin 16384) (c : Fin 256) : idx_main_v9 (ix2 r c) = ix2 r (gcol 512 (by decide) c) :=
  funext fun a => by match a with | ⟨0, _⟩ => rfl | ⟨1, _⟩ => rfl
theorem col768 (r : Fin 16384) (c : Fin 256) : idx_main_v10 (ix2 r c) = ix2 r (gcol 768 (by decide) c) :=
  funext fun a => by match a with | ⟨0, _⟩ => rfl | ⟨1, _⟩ => rfl

/-- The reference's new cell state at (r, c). -/
theorem ref_state_at (r : Fin 16384) (c : Fin 256) :
    val_main_v32 (F := Ideal) x0 x1 x2 x3 x4 x5 x6 x7 x8 x9 x10 x11 (ix2 r c)
      = newState (val_main_v0 (F := Ideal) x0 x1 x2) (val_main_v1 (F := Ideal) x4 x6 x8 x10) (val_main_v2 (F := Ideal) x5 x7 x9 x11) x3 r c := by
  simp only [val_main_v32_apply, val_main_v29_apply, val_main_v31_apply, val_main_v22_apply, val_main_v21_apply, val_main_cst_2_apply, val_main_v20_apply, val_main_v19_apply, val_main_cst_1_apply, val_main_v18_apply, val_main_v17_apply, val_main_v8_apply, val_main_v16_apply, val_main_v15_apply, val_main_cst_0_apply, val_main_v14_apply, val_main_v13_apply, val_main_cst_apply, val_main_v12_apply, val_main_v11_apply, val_main_v7_apply, val_main_v30_apply, val_main_v10_apply,
    col0, col256, col768, ref_gate, Ideal.addf_def, Ideal.mulf_def, Ideal.hostDivf_def, Ideal.hostUnary_exp_def,
    Ideal.hostUnary_tanh_def, Ideal.hostNegf_def, Ideal.negf_def, Ideal.ofBits_def, logistic_expanded]
  rfl

/-- The reference's new hidden state at (r, c). -/
theorem ref_hidden_at (r : Fin 16384) (c : Fin 256) :
    val_main_v34 (F := Ideal) x0 x1 x2 x3 x4 x5 x6 x7 x8 x9 x10 x11 (ix2 r c)
      = newHidden (val_main_v0 (F := Ideal) x0 x1 x2) (val_main_v1 (F := Ideal) x4 x6 x8 x10) (val_main_v2 (F := Ideal) x5 x7 x9 x11) x3 r c := by
  rw [val_main_v34_apply, val_main_v33_apply, ref_state_at]
  simp only [val_main_v28_apply, val_main_v27_apply, val_main_cst_4_apply, val_main_v26_apply, val_main_v25_apply, val_main_cst_3_apply, val_main_v24_apply, val_main_v23_apply, val_main_v9_apply,
    col512, ref_gate, Ideal.addf_def, Ideal.mulf_def, Ideal.hostDivf_def, Ideal.hostUnary_exp_def,
    Ideal.hostUnary_tanh_def, Ideal.hostNegf_def, Ideal.negf_def, Ideal.ofBits_def, logistic_expanded]
  rfl

/-- The reference's three joins are the specification's (the same concatenations). -/
theorem joined_in : val_main_v0 (F := Ideal) x0 x1 x2 = joinIn x0 x1 x2 := rfl
theorem joined_w : val_main_v1 (F := Ideal) x4 x6 x8 x10 = joinW x4 x6 x8 x10 := rfl
theorem joined_b : val_main_v2 (F := Ideal) x5 x7 x9 x11 = joinB x5 x7 x9 x11 := rfl

/-- Both results as whole arrays. -/
theorem ref_state : val_main_v32 (F := Ideal) x0 x1 x2 x3 x4 x5 x6 x7 x8 x9 x10 x11
    = stateArr (val_main_v0 (F := Ideal) x0 x1 x2) (val_main_v1 (F := Ideal) x4 x6 x8 x10) (val_main_v2 (F := Ideal) x5 x7 x9 x11) x3 := by
  funext i
  obtain ⟨r, c, rfl⟩ : ∃ (r : Fin 16384) (c : Fin 256), i = ix2 r c := ⟨i 0, i 1, eq_ix2 i⟩
  exact ref_state_at x0 x1 x2 x3 x4 x6 x8 x10 x5 x7 x9 x11 r c
theorem ref_hidden : val_main_v34 (F := Ideal) x0 x1 x2 x3 x4 x5 x6 x7 x8 x9 x10 x11
    = hiddenArr (val_main_v0 (F := Ideal) x0 x1 x2) (val_main_v1 (F := Ideal) x4 x6 x8 x10) (val_main_v2 (F := Ideal) x5 x7 x9 x11) x3 := by
  funext i
  obtain ⟨r, c, rfl⟩ : ∃ (r : Fin 16384) (c : Fin 256), i = ix2 r c := ⟨i 0, i 1, eq_ix2 i⟩
  exact ref_hidden_at x0 x1 x2 x3 x4 x6 x8 x10 x5 x7 x9 x11 r c

end Cert.ReferenceIdeal.RefValue

end
-- ==== Proof.lean ====
/-
  The LSTM step kernel against its jnp reference, over the extended reals.

  Both programs compute, for every row r and column c,

      newState  = σ(g[r, 256+c]) · old[r,c] + σ(g[r, c]) · tanh(g[r, 768+c])
      newHidden = σ(g[r, 512+c]) · tanh(newState)
      g[r, j]   = Σ_k [x | prev_time | prev_layer][r,k] · [Wi | Wf | Wo | Ws][k,j] + [bi | bf | bo | bs][j]

  The kernel does it 1024 rows at a time, joining the three input blocks inside the body, multiplying by the whole
  joined weight matrix and adding the joined bias row; the reference joins whole arrays and multiplies once. At the
  ideal instance narrowing to bf16 is the identity and the kernel's logistic IS 1 / (1 + e^(−x)), so the two results
  are the same expressions, sum for sum: no algebraic law and no finiteness is used.

  * the frames of the two kernel programs: Proof/FrameKernel.lean, Proof/FrameKernelIdeal.lean (the region's run);
    the reference's frame is its run with the results dropped;
  * the ideal pass rewrote nothing, so `preserves` is trivial;
  * `algebraic`: the kernel's results are `Lstm.hiddenArr` / `Lstm.stateArr` of the joined argument arrays
    (Proof/KernelBlock.lean, Proof/KernelArray.lean), and so are the reference's (Proof/RefSide.lean).
-/
import proofs.«159593_j63376537420221_1_alg».proof.Defs
import proofs.«159593_j63376537420221_1_alg».proof.Proof.Gen.Kernel
import proofs.«159593_j63376537420221_1_alg».proof.Proof.Gen.KernelIdeal
import proofs.«159593_j63376537420221_1_alg».proof.Proof.Gen.ReferenceIdeal
import proofs.«159593_j63376537420221_1_alg».proof.Proof.Gen.Pre_finite_inputs
import proofs.«159593_j63376537420221_1_alg».proof.Proof.FrameKernel
import proofs.«159593_j63376537420221_1_alg».proof.Proof.FrameKernelIdeal
import proofs.«159593_j63376537420221_1_alg».proof.Proof.KernelArray
import proofs.«159593_j63376537420221_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the twelve arguments, both programs end with the new hidden state and the new cell
    state of the joined arguments. -/
theorem algebraic : Cert.algebraic_KernelIdeal_ReferenceIdeal := by
  intro m ρ m' ρ' _ hagree
  refine ⟨fun c => Cert.Lstm.hiddenArr (Cert.Lstm.joinIn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Lstm.joinW (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) (Cert.Lstm.joinB (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg11))) (m ((c.tc : Thread Cert.KernelIdeal.nD Cert.KernelIdeal.τ).loc Cert.KernelIdeal.main_arg3)), fun c => Cert.Lstm.stateArr (Cert.Lstm.joinIn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Lstm.joinW (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10))) (Cert.Lstm.joinB (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg11))) (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v34_eq, Cert.ReferenceIdeal.RefValue.ref_hidden, Cert.ReferenceIdeal.RefValue.joined_in, Cert.ReferenceIdeal.RefValue.joined_w,
      Cert.ReferenceIdeal.RefValue.joined_b, h0, h1, h2, h3, h4, h5, h6, h7, h8, h9, h10, h11]
  · obtain ⟨h0, h1, h2, h3, h4, h5, h6, h7, h8, h9, h10, h11⟩ := hagree c
    show Cert.ReferenceIdeal.Read.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [Cert.ReferenceIdeal.RefValue.ref_state, Cert.ReferenceIdeal.RefValue.joined_in, Cert.ReferenceIdeal.RefValue.joined_w,
      Cert.ReferenceIdeal.RefValue.joined_b, h0, h1, h2, h3, h4, h5, h6, h7, h8, h9, h10, h11]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
